-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384 : Shape := ⟨1, ![16384]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) (main_arg1 : IVec S16384 32) (main_arg2 : IVec S16384 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S16384x2048 : Shape := ⟨2, ![16384, 2048]⟩
abbrev S16384 : Shape := ⟨1, ![16384]⟩
abbrev S_ : Shape := ⟨0, ![]⟩
abbrev S16384x1 : Shape := ⟨2, ![16384, 1]⟩
abbrev S512x2048 : Shape := ⟨2, ![512, 2048]⟩
abbrev S512 : Shape := ⟨1, ![512]⟩

abbrev nBuf : Space → Nat
  | .hbm => 28
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S16384x2048, .f32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S16384, .i32⟩
  | .hbm, ⟨21, _⟩ => ⟨S16384, .i1⟩
  | .hbm, ⟨22, _⟩ => ⟨S16384, .f32⟩
  | .hbm, ⟨23, _⟩ => ⟨S16384, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512, .f32⟩
  | .local _ .vmem, ⟨5, _⟩ => ⟨S512, .f32⟩
  | .local _ .vmem, ⟨6, _⟩ => ⟨S512, .f32⟩
  | .local _ .vmem, ⟨7, _⟩ => ⟨S512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  inb_S512_S512_0 : ∀ a, (![0] : Fin 1 → Nat) a + S512.size a ≤ S512.size a
  h_S512 : 0 < S512.numel
  shapeCasts_S512_S512 : S512.ShapeCasts S512
  reducesTo_S16384_S_d0 : S16384.ReducesTo [0] S_
  h_S_ : 0 < S_.numel
  gather_S16384x2048_S16384x1_S16384x2048_1_0_n_n_0_1_12048_wf : GatherDims.WF S16384x2048 S16384x1 S16384x2048 [1] [0] [] [0] [] 1 ![1, 2048]
  gather_S16384_S16384x1_S16384_n_0_n_n_0_1_1_wf : GatherDims.WF S16384 S16384x1 S16384 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S16384.size a
  hwx0_2 : ∀ i : grid0.Coords, EltTy.bits .f32 = 32 ∨ (Rect.block (s := S16384) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S16384.size a
  hwx0_3 : ∀ i : grid0.Coords, EltTy.bits .f32 = 32 ∨ (Rect.block (s := S16384) S512.size (cc0_transform_3 i) (hinb0_3 i)).WholeWords (EltTy.packing .f32)

variable [Facts₀]

def gather_S16384x2048_S16384x1_S16384x2048_1_0_n_n_0_1_12048 : GatherDims S16384x2048 S16384x1 S16384x2048 where
  offsetDims := [1]
  collapsedSliceDims := [0]
  operandBatchingDims := []
  startIndicesBatchingDims := []
  startIndexMap := [0]
  indexVectorDim := 1
  sliceSizes := ![1, 2048]
  wf := gather_S16384x2048_S16384x1_S16384x2048_1_0_n_n_0_1_12048_wf
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16384 : Shape := ⟨1, ![16384]⟩
abbrev S_ : Shape := ⟨0, ![]⟩
abbrev S16384x1 : Shape := ⟨2, ![16384, 1]⟩

abbrev nBuf : Space → Nat
  | .hbm => 66
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S16384x2048, .f32⟩
  | .hbm, ⟨19, _⟩ => ⟨S_, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S16384, .f32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S16384, .i32⟩
  | .hbm, ⟨34, _⟩ => ⟨S16384, .i1⟩
  | .hbm, ⟨35, _⟩ => ⟨S16384, .f32⟩
  | .hbm, ⟨36, _⟩ => ⟨S16384, .f32⟩
  | .hbm, ⟨37, _⟩ => ⟨S16384, .f32⟩
  | .hbm, ⟨38, _⟩ => ⟨S_, .f32⟩
  | .hbm, ⟨39, _⟩ => ⟨S16384, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S_, .f32⟩
  | .hbm, ⟨45, _⟩ => ⟨S16384, .f32⟩
  | .hbm, ⟨46, _⟩ => ⟨S16384, .f32⟩
  | .hbm, ⟨47, _⟩ => ⟨S16384, .f32⟩
  | .hbm, ⟨48, _⟩ => ⟨S16384, .f32⟩
  | .hbm, ⟨49, _⟩ => ⟨S16384, .f32⟩
  | .hbm, ⟨50, _⟩ => ⟨S_, .f32⟩
  | .hbm, ⟨51, _⟩ => ⟨S16384, .f32⟩
  | .hbm, ⟨52, _⟩ => ⟨S16384, .f32⟩
  | .hbm, ⟨53, _⟩ => ⟨S_, .f32⟩
  | .hbm, ⟨54, _⟩ => ⟨S16384, .f32⟩
  | .hbm, ⟨55, _⟩ => ⟨S16384, .f32⟩
  | .hbm, ⟨56, _⟩ => ⟨S16384, .f32⟩
  | .hbm, ⟨57, _⟩ => ⟨S_, .f32⟩
  | .hbm, ⟨58, _⟩ => ⟨S16384, .f32⟩
  | .hbm, ⟨59, _⟩ => ⟨S16384, .f32⟩
  | .hbm, ⟨60, _⟩ => ⟨S16384, .f32⟩
  | .hbm, ⟨61, _⟩ => ⟨S16384, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_11 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_12 : Ref sig .tc := ⟨.hbm, 62, rfl⟩
abbrev main_v45 : Ref sig .tc := ⟨.hbm, 63, rfl⟩
abbrev main_cst_13 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x2048_S16384_d1 : S16384x2048.ReducesTo [1] S16384
  h_S_ : 0 < S_.numel
  reducesTo_S16384_S_d0 : S16384.ReducesTo [0] S_
  gather_S16384x2048_S16384x1_S16384x2048_1_0_n_n_0_1_12048_wf : GatherDims.WF S16384x2048 S16384x1 S16384x2048 [1] [0] [] [0] [] 1 ![1, 2048]
  gather_S16384_S16384x1_S16384_n_0_n_n_0_1_1_wf : GatherDims.WF S16384 S16384x1 S16384 [] [0] [] [0] [] 1 ![1]

variable [Facts₀]

def gather_S16384x2048_S16384x1_S16384x2048_1_0_n_n_0_1_12048 : GatherDims S16384x2048 S16384x1 S16384x2048 where
  offsetDims := [1]
  collapsedSliceDims := [0]
  operandBatchingDims := []
  startIndicesBatchingDims := []
  startIndexMap := [0]
  indexVectorDim := 1
  sliceSizes := ![1, 2048]
  wf := gather_S16384x2048_S16384x1_S16384x2048_1_0_n_n_0_1_12048_wf
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf

class Facts : Prop extends Facts₀ where

variable [Facts]
-- ==== Proof.RowLoss.lean ====
/-
  The specification: the loss of one row, as one function of that row of x, the paired row x[samples[i]] and the
  row's label, over the extended reals.

  With s0 = sum_k a_k^2 and s1 = sum_k a_k b_k, and c the reciprocal of the temperature word,
      d    = s0 * c - s1 * c
      p    = 1 / (1 + exp (-d))
      loss = (0 - log (p + eps)) * l  -  log ((1 - p) + eps) * (1 - l).
  Both programs compute exactly this per row; they differ only in how they spell "times c" (one multiplies by a
  constant, the other divides by the temperature word), "p" (one operation, or its expansion into negate,
  exponential, add, divide) and "0 - t" (a subtraction from zero, or a negation).
-/
import Idealize.ShloMosaic.PureOps.Ideal
import Idealize.ShloMosaic.Lib.ValueIdx

noncomputable section

namespace Cert.RowLoss

open Idealize.ShloMosaic Idealize.ShloMosaic.ValueIdx

/-- The reciprocal of the temperature word: 2^27 / 13421773. -/
def invTemp : EReal := ((134217728 / 13421773 : ℝ) : EReal)

/-- The guard added inside both logarithms: the single-precision word nearest to 1e-5, the same word in both
    programs, so its value is never needed. -/
def eps : EReal := Ideal.ofBits .f32 0x3727C5AC#32

/-- The loss from the two inner products and the label. -/
def ofProducts (s0 s1 l : EReal) : EReal :=
  (0 - Ideal.log (Ideal.logistic (s0 * invTemp - s1 * invTemp) + eps)) * l
    - Ideal.log (1 - Ideal.logistic (s0 * invTemp - s1 * invTemp) + eps) * (1 - l)

/-- The loss of one row: `a` the row of x, `b` the paired row, `l` the label. -/
def rowLoss (a b : Fin 2048 → EReal) (l : EReal) : EReal :=
  ofProducts (∑ k, a k * a k) (∑ k, a k * b k) l

/-- The vector of all 16384 row losses, from the whole arrays. -/
def lossVec (X XJ : (⟨2, ![16384, 2048]⟩ : Shape).Idx → EReal) (L : (⟨1, ![16384]⟩ : Shape).Idx → EReal) :
    (⟨1, ![16384]⟩ : Shape).Idx → EReal :=
  fun i => rowLoss (fun k => X (ix2 (i 0) k)) (fun k => XJ (ix2 (i 0) k)) (L i)

/-- The vector of row losses read at row `r`. -/
theorem lossVec_ix1 (X XJ : (⟨2, ![16384, 2048]⟩ : Shape).Idx → EReal) (L : (⟨1, ![16384]⟩ : Shape).Idx → EReal)
    (r : Fin 16384) :
    lossVec X XJ L (ix1 r) = rowLoss (fun k => X (ix2 r k)) (fun k => XJ (ix2 r k)) (L (ix1 r)) := rfl

end Cert.RowLoss

end
-- ==== Proof.Payload.lean ====
/-
  What the kernel body stores for one row of a block: the row loss of that row.

  The body loads a 512 x 2048 block of x, the matching block of the paired rows and 512 labels, and stores 512
  values. The value stored for row p of the block depends only on row p of the two loaded blocks and on label p:
  the two lane sums are sums over the 2048 columns of that row, and everything after them is pointwise.
-/
import proofs.«119491_j86225763434864_1_alg».proof.Proof.Gen.KernelIdeal.Skeleton
import proofs.«119491_j86225763434864_1_alg».proof.Proof.RowLoss
import Idealize.ShloMosaic.PureOps.Ideal.Laws
import Idealize.ShloMosaic.PureOps.IdealRules
import Idealize.ShloMosaic.Lib.ValueIdx
import Idealize.ShloMosaic.Lib.Pipeline.Value
import Idealize.ShloMosaic.Lib.IdealHost

noncomputable section

namespace Cert.KernelIdeal.RowValue

open Idealize.ShloMosaic Idealize.ShloMosaic.ValueIdx Cert.KernelIdeal Cert.KernelIdeal.Gen Cert.RowLoss

/-- The kernel's multiplier is named the reciprocal of the temperature word, and denotes it. -/
theorem inv_temp : Named.named (F := Ideal) Cert.KernelIdeal.κ "inv_temp" (φ := .f32) 0x41200000#32 = invTemp :=
  IdealRules.named_const.ideal_named_scalar _ _ _ _ rfl

/-- A lane sum of a 512 x 2048 block, read at row p, is the sum over the 2048 columns of that row. -/
theorem laneSum (v : FVec Ideal S512x2048 .f32) (hφ : FKind.Formats .f32)
    (hacc : (0x00000000#32 : BitVec 32) = FKind.add.neutral .f32 hφ) (p : Fin 512) :
    multiReduction .add [1] S512 v 0x00000000#32 reduces_S512x2048_S512 hφ hacc (ix1 p) = ∑ k : Fin 2048, v (ix2 p k) := by
  refine (Ideal.multiReduction_add_single v 0x00000000#32 reduces_S512x2048_S512 hφ hacc (ix1 p)).trans ?_
  refine Finset.sum_congr rfl fun k _ => congrArg v ?_
  funext a; apply Fin.ext
  match a with
  | ⟨0, _⟩ => rfl
  | ⟨1, _⟩ => rfl

/-- A logarithm of a vector, read at an index, is the logarithm of the element. -/
theorem log_at {s : Shape} (a : FVec Ideal s .f32) (i : s.Idx) : log a i = Ideal.log (a i) := rfl

/-- A logistic of a vector, read at an index, is the logistic of the element. -/
theorem logistic_at {s : Shape} (a : FVec Ideal s .f32) (i : s.Idx) : logistic a i = Ideal.logistic (a i) := rfl

/-- The stored value for row p of a block is the row loss of row p. The two sums over the row's columns are first
    written as the lane sums they are; after that the two sides are the same expression, operation for operation. -/
theorem pay_row (x0 x1 : Vec Ideal S512x2048 .f32) (x2 : Vec Ideal S512 .f32) (p : Fin 512) :
    k0_pay1 (F := Ideal) x0 x1 x2 (ix1 p) = rowLoss (fun k => x0 (ix2 p k)) (fun k => x1 (ix2 p k)) (x2 (ix1 p)) := by
  have h0 : (∑ k : Fin 2048, (mulf x0 x0 : FVec Ideal S512x2048 .f32) (ix2 p k))
      = multiReduction (F := Ideal) .add [1] S512 (mulf x0 x0) 0x00000000#32 reduces_S512x2048_S512 (.inl rfl) rfl (ix1 p) :=
    (laneSum (mulf x0 x0) _ _ p).symm
  have h1 : (∑ k : Fin 2048, (mulf x0 x1 : FVec Ideal S512x2048 .f32) (ix2 p k))
      = multiReduction (F := Ideal) .add [1] S512 (mulf x0 x1) 0x00000000#32 reduces_S512x2048_S512 (.inl rfl) rfl (ix1 p) :=
    (laneSum (mulf x0 x1) _ _ p).symm
  show k0_pay1 (F := Ideal) x0 x1 x2 (ix1 p)
    = ofProducts (∑ k : Fin 2048, (mulf x0 x0 : FVec Ideal S512x2048 .f32) (ix2 p k))
        (∑ k : Fin 2048, (mulf x0 x1 : FVec Ideal S512x2048 .f32) (ix2 p k)) (x2 (ix1 p))
  rw [h0, h1]
  unfold k0_pay1 ofProducts eps
  simp only [shapeCast_self, subf_apply, mulf_apply, addf_apply, broadcast_apply, log_at, logistic_at, inv_temp,
    Ideal.ofBits_def, Ideal.ofBits_zero_f32, Ideal.ofBits_one_f32]

end Cert.KernelIdeal.RowValue

end
-- ==== Proof.Blocks.lean ====
/-
  From blocks to the whole array: after the kernel has run over its 32 grid points, the output array holds the
  row loss of every one of the 16384 rows.

  Grid point t loads rows 512 t .. 512 t + 511 of x and of the paired rows (all 2048 columns) and the same range of
  labels, and writes back the same range of the output. So what point t writes back is rows 512 t .. 512 t + 511
  of the one vector of row losses of the whole arrays, and since the 32 ranges cover 0 .. 16383 the output array
  ends equal to that vector.
-/
import proofs.«119491_j86225763434864_1_alg».proof.Proof.Gen.KernelIdeal.Frame
import proofs.«119491_j86225763434864_1_alg».proof.Proof.Payload
import Idealize.ShloMosaic.Lib.Pipeline.Value

set_option maxRecDepth 16384

noncomputable section

namespace Cert.KernelIdeal.RowValue

open Idealize.ShloMosaic Idealize.ShloMosaic.TcCoe Idealize.ShloMosaic.ValueIdx Idealize.SL.Sem
open Idealize.ShloMosaic.Pipeline (Dat)
open Cert.KernelIdeal Cert.KernelIdeal.Gen Cert.RowLoss

variable (m : (ℓ : Loc nD τ sig) → Buf (Elt Ideal) ℓ)

theorem zeros2 : (![0, 0] : Fin 2 → Nat) = fun _ => 0 := funext fun a => by fin_cases a <;> rfl
theorem zeros1 : (![0] : Fin 1 → Nat) = fun _ => 0 := funext fun a => by fin_cases a <;> rfl

/-- The vector of row losses of the arrays as the kernel finds them: x itself, the gathered paired rows and the
    label vector, the last two written by the host operations before the kernel. -/
abbrev rows (c : Dev nD) : S16384.Idx → EReal :=
  lossVec (V m c main_arg0) (V m c main_v6) (V m c main_v15)

/-- The index maps at every grid point: every window's block index along the rows is the point's number, and the
    two matrix windows sit at column block 0. -/
theorem index_facts : ∀ t : Fin cfg0.N,
      win0_0.index t (0 : Fin 2) = win0_3.index t (0 : Fin 1) ∧ win0_0.index t (1 : Fin 2) = 0
    ∧ win0_1.index t (0 : Fin 2) = win0_3.index t (0 : Fin 1) ∧ win0_1.index t (1 : Fin 2) = 0
    ∧ win0_2.index t (0 : Fin 1) = win0_3.index t (0 : Fin 1) :=
  (by decide +kernel : ∀ t : Fin grid0.N, _)

/-- Every one of the 32 row ranges is some grid point's. -/
theorem index_onto : ∀ q : Fin 32, ∃ t : Fin cfg0.N, win0_3.index t (0 : Fin 1) = q.val :=
  (by decide +kernel : ∀ q : Fin 32, ∃ t : Fin grid0.N, win0_3.index t (0 : Fin 1) = q.val)

/-- What grid point t writes back is its range of rows of the vector of row losses. -/
theorem flushed_rows (c : Dev nD) (t : Fin cfg0.N) :
    (dats m 0 c).flushed 3 t = ((cfg0.win 3).blk t).view.read (Elt Ideal) (rows m c) := by
  show (cfg0.win 3).cut (grid0.coords t) ((dats m 0 c).after 3 t) = _
  rw [after0_3]
  unfold out0_3
  rw [View.canon_unit_zero zeros1]
  simp only [View.ld_unit_zero (S := S512x2048) zeros2, View.ld_unit_zero (S := S512) zeros1]
  obtain ⟨e0, e1, e2, e3, e4⟩ := index_facts t
  funext j
  show k0_pay1 (iblk m c 0 t) (iblk m c 1 t) (iblk m c 2 t) j = rows m c (((cfg0.win 3).blk t).view.emb j)
  refine ((congrArg (k0_pay1 (iblk m c 0 t) (iblk m c 1 t) (iblk m c 2 t)) (eq_ix1 j)).trans
    (pay_row (iblk m c 0 t) (iblk m c 1 t) (iblk m c 2 t) (j 0))).trans ?_
  have hj : (j 0).val < 512 := (j 0).isLt
  have hb0 : ∀ k : Fin 2048, ((cfg0.win 0).blk t).view.emb (ix2 (j 0) k) = ix2 ((((cfg0.win 3).blk t).view.emb j) 0) k := by
    intro k; funext a; apply Fin.ext
    match a with
    | ⟨0, _⟩ => show win0_0.index t (0 : Fin 2) * 512 + 1 * (j 0).val = win0_3.index t (0 : Fin 1) * 512 + 1 * (j 0).val; omega
    | ⟨1, _⟩ => show win0_0.index t (1 : Fin 2) * 2048 + 1 * k.val = k.val; omega
  have hb1 : ∀ k : Fin 2048, ((cfg0.win 1).blk t).view.emb (ix2 (j 0) k) = ix2 ((((cfg0.win 3).blk t).view.emb j) 0) k := by
    intro k; funext a; apply Fin.ext
    match a with
    | ⟨0, _⟩ => show win0_1.index t (0 : Fin 2) * 512 + 1 * (j 0).val = win0_3.index t (0 : Fin 1) * 512 + 1 * (j 0).val; omega
    | ⟨1, _⟩ => show win0_1.index t (1 : Fin 2) * 2048 + 1 * k.val = k.val; omega
  have hb2 : ((cfg0.win 2).blk t).view.emb (ix1 (j 0)) = ((cfg0.win 3).blk t).view.emb j := by
    funext a; apply Fin.ext
    match a with
    | ⟨0, _⟩ => show win0_2.index t (0 : Fin 1) * 512 + 1 * (j 0).val = win0_3.index t (0 : Fin 1) * 512 + 1 * (j 0).val; omega
  show rowLoss (fun k => V m c main_arg0 (((cfg0.win 0).blk t).view.emb (ix2 (j 0) k)))
      (fun k => V m c main_v6 (((cfg0.win 1).blk t).view.emb (ix2 (j 0) k)))
      (V m c main_v15 (((cfg0.win 2).blk t).view.emb (ix1 (j 0))))
    = rowLoss (fun k => V m c main_arg0 (ix2 ((((cfg0.win 3).blk t).view.emb j) 0) k))
      (fun k => V m c main_v6 (ix2 ((((cfg0.win 3).blk t).view.emb j) 0) k))
      (V m c main_v15 (((cfg0.win 3).blk t).view.emb j))
  simp only [hb0, hb1, hb2]
  rfl

/-- An index of the output array is in point t's block exactly when it lies in the block's range of rows. -/
theorem mem_rows (t : Fin cfg0.N) (i : S16384.Idx) :
    i ∈ ((cfg0.win 3).blk t).view.set ↔ ∀ a : Fin 1, win0_3.index t a * S512.size a ≤ (i a).val ∧ (i a).val < win0_3.index t a * S512.size a + S512.size a := by
  show i ∈ ((View.whole main_v16).slice (win0_3.rect t)).set ↔ _
  rw [View.set_slice_whole, Rect.mem_set_unit]
  exact Iff.rfl

/-- Every row is in the range of the grid point numbered by the row's quotient by 512. -/
theorem rows_covered (i : S16384.Idx) :
    ∃ t : Fin cfg0.N, (cfg0.win 3).flush t = true ∧ i ∈ ((cfg0.win 3).blk t).view.set := by
  have hi : (i 0).val < 16384 := (i 0).isLt
  obtain ⟨t, ht⟩ := index_onto ⟨(i 0).val / 512, by omega⟩
  have q : win0_3.index t (0 : Fin 1) = (i 0).val / 512 := ht
  refine ⟨t, flush0_3 t, ?_⟩
  rw [mem_rows]
  intro a
  match a with
  | ⟨0, _⟩ => show win0_3.index t (0 : Fin 1) * 512 ≤ (i 0).val ∧ (i 0).val < win0_3.index t (0 : Fin 1) * 512 + 512; omega

/-- The output array after the run is the vector of row losses. -/
theorem final_rows (c : Dev nD) : (dats m 0 c).arrAt 3 cfg0.N = rows m c :=
  (dats m 0 c).arrAt_eq_of_cover 3 (rows m c) (fun t _ => flushed_rows m c t) rows_covered

end Cert.KernelIdeal.RowValue

end
-- ==== Proof.MeanOf.lean ====
/-
  The last step both programs share: the mean of the 16384 row losses, computed as zero plus their sum, divided by
  16384. It is kept as one function of the vector of row losses; neither its sum nor its quotient is ever opened,
  because both programs apply it to the same vector.
-/
import Idealize.ShloMosaic.PureOps.Ideal

noncomputable section

namespace Cert.RowLoss

open Idealize.ShloMosaic

/-- Zero plus the sum of the 16384 entries, divided by 16384. -/
def meanOf (v : (⟨1, ![16384]⟩ : Shape).Idx → EReal) : (⟨0, ![]⟩ : Shape).Idx → EReal :=
  Host.divf (F := Ideal) (φ := .f32)
    (Host.reduceAdd (F := Ideal) (φ := .f32) (s := ⟨1, ![16384]⟩) (axes := [0]) (t := ⟨0, ![]⟩) (u := ⟨0, ![]⟩) v
      (constant (F := Ideal) ⟨0, ![]⟩ .f32 0x00000000#32))
    (constant (F := Ideal) ⟨0, ![]⟩ .f32 0x46800000#32)

end Cert.RowLoss

end
-- ==== Proof.KernelRun.lean ====
/-
  The kernel program's run, read as a value: its result is the mean of the row losses of x, of the rows the
  reference's own gather pairs with them, and of the reference's own label vector.

  Before the kernel, the program's host operations gather the paired rows and compute the label exactly as the
  reference does (the same operations in the same order), so the two arrays the kernel finds are the reference's
  two stages of the same arguments. After the kernel, the host operations take the mean of the kernel's output
  array, which is the vector of row losses.
-/
import proofs.«119491_j86225763434864_1_alg».proof.Proof.Blocks
import proofs.«119491_j86225763434864_1_alg».proof.Proof.MeanOf
import proofs.«119491_j86225763434864_1_alg».proof.Proof.Gen.ReferenceIdeal.Read
import Idealize.ShloMosaic.Lib.StableHlo.Run

set_option maxRecDepth 16384

noncomputable section

namespace Cert.KernelIdeal.RowValue

open Idealize.ShloMosaic Idealize.ShloMosaic.TcCoe Idealize.ShloMosaic.ValueIdx Idealize.SL.Sem
open Idealize.ShloMosaic.Pipeline (Dat)
open Cert.KernelIdeal Cert.KernelIdeal.Gen Cert.RowLoss

variable (m : (ℓ : Loc nD τ sig) → Buf (Elt Ideal) ℓ) (ρ : Dev nD → PrngReg)

/-- The paired rows as the kernel finds them: the reference's gathered array of the same x and samples. -/
theorem V_paired (c : Dev nD) :
    V m c main_v6 = Cert.ReferenceIdeal.Read.val_main_v6 (F := Ideal) (m ((c : Thread nD τ).loc main_arg0)) (m ((c : Thread nD τ).loc main_arg2)) := by
  show StableHlo.after hostOps0 (fun b => m (c, b)) (Proc.devRef .tc main_v6) = _
  after_results
  rfl

/-- The label vector as the kernel finds it: the reference's label vector of the same y and samples. -/
theorem V_label (c : Dev nD) :
    V m c main_v15 = Cert.ReferenceIdeal.Read.val_main_v24 (F := Ideal) (m ((c : Thread nD τ).loc main_arg1)) (m ((c : Thread nD τ).loc main_arg2)) := by
  show StableHlo.after hostOps0 (fun b => m (c, b)) (Proc.devRef .tc main_v15) = _
  after_results
  rfl

/-- The vector of row losses of the arrays the kernel finds, in terms of the program's arguments. -/
theorem rows_eq (c : Dev nD) :
    rows m c = lossVec (m ((c : Thread nD τ).loc main_arg0))
      (Cert.ReferenceIdeal.Read.val_main_v6 (F := Ideal) (m ((c : Thread nD τ).loc main_arg0)) (m ((c : Thread nD τ).loc main_arg2)))
      (Cert.ReferenceIdeal.Read.val_main_v24 (F := Ideal) (m ((c : Thread nD τ).loc main_arg1)) (m ((c : Thread nD τ).loc main_arg2))) := by
  show lossVec (V m c main_arg0) (V m c main_v6) (V m c main_v15) = _
  rw [V_main_arg0 m c, V_paired m c, V_label m c]

/-- The program's result after the host operations that follow the kernel: the mean of the row losses. -/
theorem tail_eq (c : Dev nD) :
    Pipeline.afterTail₀ cfgs (dats m) 0 (V0 m) [hostOps1] c main_v18 = meanOf (rows m c) := by
  unfold Pipeline.afterTail₀
  show StableHlo.after hostOps1 _ (Proc.devRef .tc main_v18) = _
  after_results
  have e := (Pipeline.withArrays_arr spec0 launch0.win.arr_inj c (V0 m c) (fun w => (dats m 0 c).arrAt w cfg0.N) 3).trans
    (final_rows m c)
  show Host.divf (F := Ideal) (Host.reduceAdd (F := Ideal)
      (Pipeline.withArrays spec0 c (V0 m c) (fun w => (dats m 0 c).arrAt w cfg0.N) (Proc.devRef .tc (Pipeline.arrRef spec0 3)))
      (constant (F := Ideal) S_ .f32 0x00000000#32) reducesTo_S16384_S_d0 h_S_) (constant (F := Ideal) S_ .f32 0x46800000#32) = _
  rw [e]
  rfl

/-- Every weakly fair execution of the kernel program terminates; its result is the mean of the row losses of the
    arguments, and the arguments end unchanged. -/
theorem run : θ_run defs (onTc (τ := τ) (main (F := Ideal))) ⟨m, fun _ => 0, ρ⟩ fun r => ∀ c : Dev nD,
      r.2.mem ((c.tc : Thread nD τ).loc main_v18)
        = meanOf (lossVec (m ((c.tc : Thread nD τ).loc main_arg0))
            (Cert.ReferenceIdeal.Read.val_main_v6 (F := Ideal) (m ((c.tc : Thread nD τ).loc main_arg0)) (m ((c.tc : Thread nD τ).loc main_arg2)))
            (Cert.ReferenceIdeal.Read.val_main_v24 (F := Ideal) (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v18 (Pipeline.mem_restRefs_of main_v18 (by decide) (by decide))).trans
        ((tail_eq m c).trans (congrArg meanOf (rows_eq m c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RowValue

end
-- ==== Proof.Consts.lean ====
/-
  The float constants whose exact values the bridge between the two programs needs, as the extended reals their
  bit patterns denote. The temperature 0.1 is not a binary fraction: the single-precision word nearest to it
  denotes 13421773 / 2^27, slightly above one tenth. Its reciprocal, 2^27 / 13421773, is what a division by that
  word multiplies by. Evaluating a bit pattern is done here and nowhere else.
-/
import Idealize.ShloMosaic.PureOps.Ideal

noncomputable section

namespace Cert.Consts

open Idealize.ShloMosaic

/-- The single-precision word nearest to one tenth denotes 13421773 / 2^27. -/
theorem ofBits_tenth : Ideal.ofBits .f32 0x3DCCCCCD#32 = ((13421773 / 134217728 : ℝ) : EReal) := by
  simp [Ideal.ofBits, Ideal.ieee, -EReal.coe_mul]; norm_num

/-- That value is not zero, so dividing by it is multiplying by its reciprocal. -/
theorem tenth_ne_zero : (13421773 / 134217728 : ℝ) ≠ 0 := by norm_num

/-- The reciprocal of 13421773 / 2^27 is 2^27 / 13421773. -/
theorem one_div_tenth : (1 / (13421773 / 134217728 : ℝ)) = (134217728 / 13421773 : ℝ) := by norm_num

end Cert.Consts

end
-- ==== Proof.RefRows.lean ====
/-
  The reference's vector of per-row losses, read at a row, is the row loss of that row.

  The reference forms the two inner products by summing over the 2048 columns, divides each by the temperature
  word (which is multiplying by the reciprocal of the value that word denotes), subtracts, and applies
  1 / (1 + exp (-d)), the two guarded logarithms and the label weights pointwise. The paired rows and the label
  are left as the arrays the gathers produce: which row a gather picks never matters here.
-/
import proofs.«119491_j86225763434864_1_alg».proof.Proof.Gen.ReferenceIdeal.Read
import proofs.«119491_j86225763434864_1_alg».proof.Proof.RowLoss
import proofs.«119491_j86225763434864_1_alg».proof.Proof.Consts
import Idealize.ShloMosaic.Lib.ValueIdx
import Idealize.ShloMosaic.Lib.IdealHost

noncomputable section

namespace Cert.ReferenceIdeal.RowValue

open Idealize.ShloMosaic Idealize.ShloMosaic.ValueIdx Cert.ReferenceIdeal Cert.ReferenceIdeal.Read Cert.RowLoss

/-- Dividing by the temperature word is multiplying by the reciprocal of the value it denotes. -/
theorem div_temp (t : EReal) : Ideal.div t (Ideal.ofBits .f32 0x3DCCCCCD#32) = t * invTemp := by
  rw [Cert.Consts.ofBits_tenth, Ideal.div_coe Cert.Consts.tenth_ne_zero, Cert.Consts.one_div_tenth]
  rfl

/-- The index the first row sum reads at column k of row r. -/
theorem idx8 (r : Fin 16384) (k : Fin 2048) : idx_main_v8 (ix1 r) k = ix2 r k :=
  funext fun a => Fin.ext (by match a with | ⟨0, _⟩ => rfl | ⟨1, _⟩ => rfl)

/-- The index the second row sum reads at column k of row r. -/
theorem idx12 (r : Fin 16384) (k : Fin 2048) : idx_main_v12 (ix1 r) k = ix2 r k :=
  funext fun a => Fin.ext (by match a with | ⟨0, _⟩ => rfl | ⟨1, _⟩ => rfl)

variable (x : (⟨S16384x2048, .f32⟩ : BufTy).Contents (Elt Ideal)) (y s : (⟨S16384, .i32⟩ : BufTy).Contents (Elt Ideal))

/-- The first scaled inner product at row r: the row's sum of squares times the reciprocal temperature. -/
theorem v10_row (r : Fin 16384) :
    val_main_v10 (F := Ideal) x (ix1 r) = (∑ k : Fin 2048, x (ix2 r k) * x (ix2 r k)) * invTemp := by
  rw [val_main_v10_apply, val_main_v8_apply, val_main_v9_apply, val_main_cst_1_apply, val_main_cst_apply]
  simp only [val_main_v7_apply, idx8, Ideal.hostDivf_def, Ideal.ofBits_def, Ideal.ofBits_zero_f32, zero_add, Ideal.mulf_def, div_temp]

/-- The second scaled inner product at row r: the row's product with its paired row, summed, times the reciprocal
    temperature. -/
theorem v14_row (r : Fin 16384) :
    val_main_v14 (F := Ideal) x s (ix1 r)
      = (∑ k : Fin 2048, x (ix2 r k) * val_main_v6 (F := Ideal) x s (ix2 r k)) * invTemp := by
  rw [val_main_v14_apply, val_main_v12_apply, val_main_v13_apply, val_main_cst_3_apply, val_main_cst_2_apply]
  simp only [val_main_v11_apply, idx12, Ideal.hostDivf_def, Ideal.ofBits_def, Ideal.ofBits_zero_f32, zero_add, Ideal.mulf_def, div_temp]

/-- The reference's loss vector at row r is the row loss of row r. -/
theorem v44_row (r : Fin 16384) :
    val_main_v44 (F := Ideal) x y s (ix1 r)
      = rowLoss (fun k => x (ix2 r k)) (fun k => val_main_v6 (F := Ideal) x s (ix2 r k)) (val_main_v24 (F := Ideal) y s (ix1 r)) := by
  rw [val_main_v44_apply, val_main_v35_apply, val_main_v43_apply, val_main_v34_apply, val_main_v33_apply,
    val_main_v32_apply, val_main_v31_apply, val_main_cst_8_apply, val_main_v40_apply, val_main_v39_apply,
    val_main_v38_apply, val_main_cst_10_apply, val_main_v37_apply, val_main_v36_apply, val_main_cst_9_apply,
    val_main_v42_apply, val_main_v41_apply, val_main_cst_11_apply,
    val_main_v30_apply, val_main_v29_apply, val_main_cst_7_apply, val_main_v28_apply, val_main_v27_apply,
    val_main_cst_6_apply, val_main_v26_apply, val_main_v25_apply, val_main_v15_apply, v10_row, v14_row]
  simp only [Ideal.subf_def, Ideal.mulf_def, Ideal.addf_def, Ideal.hostNegf_def, Ideal.negf_def, Ideal.hostUnary_log_def,
    Ideal.hostUnary_exp_def, Ideal.hostDivf_def, Ideal.ofBits_def, Ideal.ofBits_one_f32]
  unfold rowLoss ofProducts eps Ideal.logistic
  rw [zero_sub]

end Cert.ReferenceIdeal.RowValue

end
-- ==== Proof.RefResult.lean ====
/-
  The reference's result is the mean of the row losses: its vector of per-row losses is the vector of row losses
  (row by row, from the per-row reading), and its last two operations are the shared mean.
-/
import proofs.«119491_j86225763434864_1_alg».proof.Proof.RefRows
import proofs.«119491_j86225763434864_1_alg».proof.Proof.MeanOf

noncomputable section

namespace Cert.ReferenceIdeal.RowValue

open Idealize.ShloMosaic Idealize.ShloMosaic.ValueIdx Cert.ReferenceIdeal Cert.ReferenceIdeal.Read Cert.RowLoss

variable (x : (⟨S16384x2048, .f32⟩ : BufTy).Contents (Elt Ideal)) (y s : (⟨S16384, .i32⟩ : BufTy).Contents (Elt Ideal))

/-- The reference's vector of per-row losses is the vector of row losses of x, its gathered rows and its label. -/
theorem v44_eq :
    val_main_v44 (F := Ideal) x y s = lossVec x (val_main_v6 (F := Ideal) x s) (val_main_v24 (F := Ideal) y s) := by
  funext i
  have hi : i = ix1 (i 0) := eq_ix1 i
  rw [hi]
  exact (v44_row x y s (i 0)).trans (lossVec_ix1 _ _ _ (i 0)).symm

/-- The reference's result is the mean of that vector. -/
theorem result_eq :
    val_main_v46 (F := Ideal) x y s = meanOf (lossVec x (val_main_v6 (F := Ideal) x s) (val_main_v24 (F := Ideal) y s)) := by
  unfold val_main_v46 val_main_v45
  rw [v44_eq]
  rfl

end Cert.ReferenceIdeal.RowValue

end
-- ==== Proof.lean ====
/-
  A contrastive binary-cross-entropy loss: for each of 16384 rows x_i, with x_j the row paired with it by
  `samples` and label l_i = [y_i ≠ y_j],
      d_i = (<x_i, x_i> - <x_i, x_j>) / T,   p_i = 1 / (1 + exp (-d_i)),
      loss_i = -log (p_i + eps) * l_i - log (1 - p_i + eps) * (1 - l_i),
  and the result is the mean of the loss_i.

  The kernel program gathers the paired rows and the labels on the host exactly as the reference does, computes
  the loss_i in blocks of 512 rows, and takes the mean on the host. Inside a block it multiplies the inner products
  by a constant where the reference divides by the temperature word; that constant is named the exact reciprocal
  of the value the temperature word denotes, 2^27 / 13421773, so over the extended reals the two are the same
  factor on every value, finite or not (a division by a nonzero real is the product with its reciprocal). The
  kernel's one logistic operation is by definition the reference's 1 / (1 + exp (-d)), and its "0 - t" is the
  reference's "-t". No other law is used, so the finiteness of the inputs is never needed.

  The proof has two halves that meet in one term. The kernel half: the value stored for a row is the row loss
  (Payload), the 32 blocks tile the output so the output array is the vector of all row losses (Blocks), and the
  host operations around the kernel give the program's result as the mean of that vector of the arguments
  (KernelRun). The reference half: its per-row vector is the same vector, row by row (RefRows), and its last two
  operations are the same mean (RefResult). The three frame claims are the generated frames; the idealization
  claim is the named constant's statement, once per place it is used.
-/
import proofs.«119491_j86225763434864_1_alg».proof.Defs
import proofs.«119491_j86225763434864_1_alg».proof.Proof.Gen.Kernel
import proofs.«119491_j86225763434864_1_alg».proof.Proof.Gen.Kernel.Frame
import proofs.«119491_j86225763434864_1_alg».proof.Proof.Gen.KernelIdeal
import proofs.«119491_j86225763434864_1_alg».proof.Proof.Gen.KernelIdeal.Frame
import proofs.«119491_j86225763434864_1_alg».proof.Proof.Gen.ReferenceIdeal
import proofs.«119491_j86225763434864_1_alg».proof.Proof.Gen.ReferenceIdeal.Run
import proofs.«119491_j86225763434864_1_alg».proof.Proof.Gen.ReferenceIdeal.Read
import proofs.«119491_j86225763434864_1_alg».proof.Proof.Gen.Pre_finite_inputs
import proofs.«119491_j86225763434864_1_alg».proof.Proof.KernelRun
import proofs.«119491_j86225763434864_1_alg».proof.Proof.RefResult
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization renamed one constant, in the two places the kernel multiplies by it: the multiplier 10.0 is
    read as 2^27 / 13421773, the reciprocal of the value of the temperature word. -/
theorem preserves : Cert.preserves_Kernel_KernelIdeal :=
  ⟨IdealRules.named_const.statement Cert.KernelIdeal.κ "inv_temp" .f32 0x41200000#32 ((134217728 / 13421773 : ℝ) : EReal) rfl,
    IdealRules.named_const.statement Cert.KernelIdeal.κ "inv_temp" .f32 0x41200000#32 ((134217728 / 13421773 : ℝ) : EReal) rfl⟩

/-- From memories that agree on the arguments both programs end at the mean of the row losses of those arguments. -/
theorem algebraic : Cert.algebraic_KernelIdeal_ReferenceIdeal := by
  intro m ρ m' ρ' _ hagree
  refine ⟨_, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v46_eq _ _ _).trans ?_
  rw [(hagree c).1, (hagree c).2.1, (hagree c).2.2]
  exact Cert.ReferenceIdeal.RowValue.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
